-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x5x512 : Shape := ⟨3, ![2048, 5, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x5x512 : S_.BroadcastsInDim S2048x5x512 (![] : Fin 0 → Fin S2048x5x512.rank)
  reducesTo_S2048x5x512_S_d0_1_2 : S2048x5x512.ReducesTo [0, 1, 2] S_

variable [Facts]

def fn {F : FTy → Type} [FloatOps F] (main_arg0 : FVec F S16384x512 .f32) (main_arg1 : FVec F S2048x5x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x5x512 .f32 := Host.absf main_arg1
  let main_cst_0 : FVec F S_ .f32 := constant S_ .f32 0x7F800000#32
  let main_v5 : FVec F S2048x5x512 .f32 := broadcastInDim S2048x5x512 ![] bcast_S_S2048x5x512 main_cst_0
  let main_v6 : IVec S2048x5x512 1 := cmpf .olt main_v4 main_v5
  let main_c_1 : IVec S_ 1 := constantI S_ 1 1#1
  let main_v7 : IVec S_ 1 := (fun x v => Host.reduce IntOp.andi x v reducesTo_S2048x5x512_S_d0_1_2 h_S_) main_v6 main_c_1
  let main_v8 : IVec S_ 1 := andi main_v3 main_v7
  main_v8
-- ==== Kernel.lean ====
abbrev S16384x512 : Shape := ⟨2, ![16384, 512]⟩
abbrev S2048x5x512 : Shape := ⟨3, ![2048, 5, 512]⟩
abbrev S2048x512 : Shape := ⟨2, ![2048, 512]⟩
abbrev S512x5x512 : Shape := ⟨3, ![512, 5, 512]⟩
abbrev S512x512 : Shape := ⟨2, ![512, 512]⟩
abbrev S16384x2048 : Shape := ⟨2, ![16384, 2048]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S2048x5x512, .f32⟩
  | .hbm, ⟨2, _⟩ => ⟨S2048x512, .bf16⟩
  | .hbm, ⟨3, _⟩ => ⟨S16384x2048, .f32⟩
  | .local _ .vmem, ⟨0, _⟩ => ⟨S512x5x512, .f32⟩
  | .local _ .vmem, ⟨1, _⟩ => ⟨S512x5x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S1024x2048, .f32⟩
  | .local _ .vmem, ⟨8, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x5x512_S512x5x512_0_0_0 : ∀ a, (![0, 0, 0] : Fin 3 → Nat) a + S512x5x512.size a ≤ S512x5x512.size a
  h_S512x5x512 : 0 < S512x5x512.numel
  reduces_S512x5x512_S512x512 : S512x5x512.Reduces [1] S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5x512.size a ≤ S2048x5x512.size a
  hwx0_0 : ∀ i : grid0.Coords, EltTy.bits .f32 = 32 ∨ (Rect.block (s := S2048x5x512) S512x5x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .bf16 = 32 ∨ (Rect.block (s := S2048x512) S512x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S16384x2048.size a
  hwx1_2 : ∀ i : grid1.Coords, EltTy.bits .f32 = 32 ∨ (Rect.block (s := S16384x2048) S1024x2048.size (cc1_transform_2 i) (hinb1_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S512x5x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x512 : Shape := ⟨2, ![16384, 512]⟩
abbrev S2048x5x512 : Shape := ⟨3, ![2048, 5, 512]⟩
abbrev S_ : Shape := ⟨0, ![]⟩
abbrev S2048x512 : Shape := ⟨2, ![2048, 512]⟩
abbrev S16384x2048 : Shape := ⟨2, ![16384, 2048]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x5x512, .f32⟩
  | .hbm, ⟨2, _⟩ => ⟨S_, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x2048, .f32⟩
  | .hbm, ⟨21, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S2048x5x512_S2048x512_d1 : S2048x5x512.ReducesTo [1] S2048x512
  h_S_ : 0 < S_.numel
  bcast_S_S2048x512 : S_.BroadcastsInDim S2048x512 (![] : Fin 0 → Fin S2048x512.rank)
  reducesTo_S16384x2048_S16384_d1 : S16384x2048.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.Spec.lean ====
/-
  The function both programs compute, on the extended reals.

  From queries `x : [16384, 512]` and support sets `y : [2048, 5, 512]`:
  * the prototype of class `c` is the mean of its five support rows, `proto y c d = (∑ s, y[c, s, d]) / 5`;
  * the score of query `q` against class `c` is the inner product `∑ k, x[q, k] · proto y c k`;
  * the result row `q` is the softmax of its 2048 scores, taken in the stable form: with `M` the maximum of the
    row (a fold of `max` from `-∞`), entry `c` is `exp (d c - M) / ∑ c', exp (d c' - M)`.

  The softmax of one row is stated once, as a function of the row of scores alone (`softRow`), so that either
  program's row only has to be shown to be `softRow` of the same scores.
-/
import Idealize.ShloMosaic.PureOps.Ideal
import Idealize.ShloMosaic.Lib.ValueIdx

noncomputable section

namespace Cert.Spec

open Idealize.ShloMosaic Idealize.ShloMosaic.ValueIdx

/-- The number five, as the float pattern both programs divide by. -/
abbrev five : EReal := Ideal.ofBits .f32 0x40A00000#32

/-- Minus infinity, as the float pattern both programs start a row maximum from. -/
abbrev negInf : EReal := Ideal.ofBits .f32 0xFF800000#32

/-- The prototype of class `c` at feature `d`: the sum of the five support rows there, divided by five. -/
def proto (y : (⟨3, ![2048, 5, 512]⟩ : Shape).Idx → EReal) (c : Fin 2048) (d : Fin 512) : EReal :=
  Ideal.div (∑ s : Fin 5, y (ix3 c s d)) five

/-- The prototypes as a `[2048, 512]` array. -/
def protoArr (y : (⟨3, ![2048, 5, 512]⟩ : Shape).Idx → EReal) : (⟨2, ![2048, 512]⟩ : Shape).Idx → EReal :=
  fun j => proto y ⟨(j 0).val, (j 0).isLt⟩ ⟨(j 1).val, (j 1).isLt⟩

/-- The maximum of a row of scores, folded from minus infinity. -/
def rowMax (d : Fin 2048 → EReal) : EReal := (Finset.univ : Finset (Fin 2048)).fold max negInf d

/-- The stable softmax of a row of 2048 scores, at entry `c`. -/
def softRow (d : Fin 2048 → EReal) (c : Fin 2048) : EReal :=
  Ideal.div (Ideal.exp (d c - rowMax d)) (∑ c' : Fin 2048, Ideal.exp (d c' - rowMax d))

/-- The scores of one query row `xr` against a table of prototypes `p`. -/
def scores (xr : Fin 512 → EReal) (p : Fin 2048 → Fin 512 → EReal) (c : Fin 2048) : EReal :=
  ∑ k : Fin 512, xr k * p c k

/-- The whole result: row `q` is the softmax of the scores of query `q` against the prototypes of `y`. -/
def soft (x : (⟨2, ![16384, 512]⟩ : Shape).Idx → EReal) (y : (⟨3, ![2048, 5, 512]⟩ : Shape).Idx → EReal) :
    (⟨2, ![16384, 2048]⟩ : Shape).Idx → EReal :=
  fun i => softRow (scores (fun k => x (ix2 (⟨(i 0).val, (i 0).isLt⟩ : Fin 16384) k)) (proto y)) ⟨(i 1).val, (i 1).isLt⟩

end Cert.Spec

end
-- ==== Proof.KernelRun.lean ====
/-
  The idealized kernel's run, with its result kept.

  @main is two launches in a row: the first fills the prototype table `main_v0`, the second reads it whole and fills
  the result `main_v1`. Every weakly fair execution terminates, and in the final state every unscoped buffer holds
  what the fold of the two launches over the launch memory leaves there (`Gen.W2`): for the result buffer that is what
  the second launch's write-backs leave, for the two argument arrays their launch contents.
-/
import proofs.«182172_j64939905516354_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at what the two launches'
    fold leaves in it, and the argument arrays end as launched. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

end Cert.KernelIdeal.Whole

end
-- ==== Proof.LibLanes.lean ====
/-
  Reading a lane reduction with kept dimension at an index, at the ideal instance: the sum (or the maximum) over the lanes of a
  row, cast from a vector of rows to a column, and a column broadcast back over the lanes. General in the two extents.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) (fun d => by
    match d with
    | ⟨0, _⟩ =>
      show p.val = if a = 1 then 0 else p.val
      split
      · have := p.isLt; omega
      · rfl
    | ⟨1, _⟩ => rfl)

/-- The sum over the lanes of row `p`. -/
theorem lane_sum {a b : ℕ} (v : FVec Ideal (⟨2, ![a, b]⟩ : Shape) .f32) (h : (⟨2, ![a, b]⟩ : Shape).Reduces [1] ⟨1, ![a]⟩)
    (hφ : FKind.Formats .f32) (hacc : (0x00000000#32 : BitVec 32) = 0x00000000#32) (p : Fin a) :
    multiReduction .add [1] (⟨1, ![a]⟩ : Shape) v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

/-- The maximum over the lanes of row `p`, from minus infinity. -/
theorem lane_max {a b : ℕ} (v : FVec Ideal (⟨2, ![a, b]⟩ : Shape) .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] (⟨1, ![a]⟩ : Shape) v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (Finset.fold max _ · Finset.univ) (funext fun k => congrArg v (funext fun d => Fin.ext ?_))
  match d with
  | ⟨0, _⟩ => rfl
  | ⟨1, _⟩ => rfl

end Cert.Lib

end
-- ==== Proof.SoftBody.lean ====
/-
  The second kernel's body at an entry.

  On a block of 1024 queries `x0` and the whole prototype table `x1` the body forms the scores
  `d[p, c] = ∑ k, x0[p, k] · x1[c, k]` (a matrix product contracting the feature axis of both operands, into a zero
  accumulator; the change of float format of `x0` is the identity on the extended reals), then per row the maximum
  over the 2048 lanes from `-∞`, the exponentials of the differences, their sum over the lanes from zero, and the
  quotient. Entry `(p, c)` of what it stores is therefore the stable softmax of row `p` of the scores, at `c`.
-/
import proofs.«182172_j64939905516354_2_alg».proof.Proof.Gen.KernelIdeal.Skeleton
import proofs.«182172_j64939905516354_2_alg».proof.Proof.Spec
import proofs.«182172_j64939905516354_2_alg».proof.Proof.LibLanes
import Idealize.ShloMosaic.PureOps.Ideal.Laws
import Idealize.ShloMosaic.Lib.ValueIdx
import Idealize.ShloMosaic.Lib.Pipeline.Value

noncomputable section

namespace Cert.KernelIdeal.Bodies

open Cert.KernelIdeal Cert.KernelIdeal.Gen
open Idealize.ShloMosaic Idealize.ShloMosaic.ValueIdx

/-- The left operand's index of the matrix product at output `i`: its row is `i`'s row. -/
theorem lhs_row (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- The right operand's index of the matrix product at output `i`: its row is `i`'s column. -/
theorem rhs_row (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- The matrix product of a block of queries with the prototype table, into zero, at `(p, c)`: the inner product of
    query row `p` with prototype row `c`. -/
theorem scores_at (x0 : FVec Ideal S1024x512 .bf16) (x1 : FVec Ideal S2048x512 .bf16) (p : Fin 1024) (c : Fin 2048) :
    matmul dot_S1024x512_S2048x512_S1024x2048_1_1_0_0_n_n none x0 x1 (constant S1024x2048 .f32 0x00000000#32) (ix2 p c)
      = ∑ k : Fin 512, x0 (ix2 p k) * x1 (ix2 c k) := by
  simp only [matmul]
  rw [Ideal.matmul_constant_zero_apply,
    ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 p c)
      ((ValueIdx.contrEquiv1 dot_S1024x512_S2048x512_S1024x2048_1_1_0_0_n_n 512 rfl rfl).symm k) = ix2 p k :=
    funext fun a => Fin.ext (by
      match a with
      | ⟨0, _⟩ => exact lhs_row _ _
      | ⟨1, _⟩ =>
        exact (dot_S1024x512_S2048x512_S1024x2048_1_1_0_0_n_n.lhsIdx_val_of_single rfl (ix2 p c) _).trans hk)
  have er : dot_S1024x512_S2048x512_S1024x2048_1_1_0_0_n_n.rhsIdx (ix2 p c)
      ((ValueIdx.contrEquiv1 dot_S1024x512_S2048x512_S1024x2048_1_1_0_0_n_n 512 rfl rfl).symm k) = ix2 c k :=
    funext fun a => Fin.ext (by
      match a with
      | ⟨0, _⟩ => exact rhs_row _ _
      | ⟨1, _⟩ =>
        exact (dot_S1024x512_S2048x512_S1024x2048_1_1_0_0_n_n.rhsIdx_val_of_single rfl (ix2 p c) _).trans hk)
  rw [el, er]

/-- A row's maximum over the lanes, kept as a column and spread back over the lanes. -/
def spreadMax (d : FVec Ideal S1024x2048 .f32) : FVec Ideal S1024x2048 .f32 :=
  broadcastTo S1024x2048 (shapeCast S1024x1
    (multiReduction .maximumf [1] S1024 d 0xFF800000#32 reduces_S1024x2048_S1024 (.inl rfl) rfl) shapeCasts_S1024_S1024x1)
    broadcasts_S1024x1_S1024x2048

/-- A row's sum over the lanes, kept as a column and spread back over the lanes. -/
def spreadSum (e : FVec Ideal S1024x2048 .f32) : FVec Ideal S1024x2048 .f32 :=
  broadcastTo S1024x2048 (shapeCast S1024x1
    (multiReduction .add [1] S1024 e 0x00000000#32 reduces_S1024x2048_S1024 (.inl rfl) rfl) shapeCasts_S1024_S1024x1)
    broadcasts_S1024x1_S1024x2048

/-- At `(p, c)` the spread maximum is the maximum of row `p`, folded from minus infinity. -/
theorem spreadMax_apply (d : FVec Ideal S1024x2048 .f32) (p : Fin 1024) (c : Fin 2048) :
    spreadMax d (ix2 p c) = Spec.rowMax (fun c' => d (ix2 p c')) := by
  unfold spreadMax Spec.rowMax
  refine (Cert.Lib.broadcastTo_a1_ab_apply _ broadcasts_S1024x1_S1024x2048 p c).trans ?_
  refine (Cert.Lib.shapeCast_a_a1_apply _ shapeCasts_S1024_S1024x1 p 0).trans ?_
  exact Cert.Lib.lane_max d reduces_S1024x2048_S1024 (.inl rfl) rfl p

/-- At `(p, c)` the spread sum is the sum of row `p`. -/
theorem spreadSum_apply (e : FVec Ideal S1024x2048 .f32) (p : Fin 1024) (c : Fin 2048) :
    spreadSum e (ix2 p c) = ∑ c' : Fin 2048, e (ix2 p c') := by
  unfold spreadSum
  refine (Cert.Lib.broadcastTo_a1_ab_apply _ broadcasts_S1024x1_S1024x2048 p c).trans ?_
  refine (Cert.Lib.shapeCast_a_a1_apply _ shapeCasts_S1024_S1024x1 p 0).trans ?_
  exact Cert.Lib.lane_sum e reduces_S1024x2048_S1024 (.inl rfl) rfl p

/-- The softmax steps of the body on an array of scores `d`, at `(p, c)`: the stable softmax of row `p`, at `c`. -/
theorem softmax_at (d : FVec Ideal S1024x2048 .f32) (p : Fin 1024) (c : Fin 2048) :
    divf (exp (subf d (spreadMax d))) (spreadSum (exp (subf d (spreadMax d)))) (ix2 p c)
      = Spec.softRow (fun c' => d (ix2 p c')) c := by
  have he : ∀ c' : Fin 2048, exp (subf d (spreadMax d)) (ix2 p c')
      = Ideal.exp (d (ix2 p c') - Spec.rowMax (fun c'' => d (ix2 p c''))) := fun c' => by
    show Ideal.exp (d (ix2 p c') - spreadMax d (ix2 p c')) = _
    rw [spreadMax_apply]
  show Ideal.div (exp (subf d (spreadMax d)) (ix2 p c)) (spreadSum (exp (subf d (spreadMax d))) (ix2 p c)) = _
  rw [spreadSum_apply, he c]
  unfold Spec.softRow
  exact congrArg (Ideal.div _) (Finset.sum_congr rfl fun c' _ => he c')

/-- What the second kernel stores, at `(p, c)`: the softmax of the scores of query row `p` against the table, at `c`. -/
theorem soft_block (x0 : FVec Ideal S1024x512 .f32) (x1 : FVec Ideal S2048x512 .bf16) (p : Fin 1024) (c : Fin 2048) :
    k1_pay1 (F := Ideal) x0 x1 (ix2 p c)
      = Spec.softRow (Spec.scores (fun k => x0 (ix2 p k)) (fun c' k => x1 (ix2 c' k))) c := by
  have key := softmax_at (matmul dot_S1024x512_S2048x512_S1024x2048_1_1_0_0_n_n none
    (truncf .bf16 x0 bitsLt_bf16_f32 : FVec Ideal S1024x512 .bf16)
    (shapeCast S2048x512 x1 shapeCasts_S2048x512_S2048x512 : FVec Ideal S2048x512 .bf16)
    (constant S1024x2048 .f32 0x00000000#32)) p c
  refine Eq.trans ?_ (key.trans ?_)
  · rfl
  · refine congrArg (Spec.softRow · c) (funext fun c' => ?_)
    rw [shapeCast_self]
    exact scores_at (truncf .bf16 x0 bitsLt_bf16_f32 : FVec Ideal S1024x512 .bf16) x1 p c'

end Cert.KernelIdeal.Bodies

end
-- ==== Proof.ProtoBody.lean ====
/-
  The first kernel's body at an entry.

  On a block of 512 classes the body sums the five support rows of each class (a reduction over the middle axis of the
  `[512, 5, 512]` block, from zero) and divides by five; the change of float format that follows is the identity on the
  extended reals. So entry `(c, d)` of what it stores is `(∑ s, v[c, s, d]) / 5`.
-/
import proofs.«182172_j64939905516354_2_alg».proof.Proof.Gen.KernelIdeal.Skeleton
import proofs.«182172_j64939905516354_2_alg».proof.Proof.Spec
import Idealize.ShloMosaic.PureOps.Ideal.Laws
import Idealize.ShloMosaic.Lib.ValueIdx

noncomputable section

namespace Cert.KernelIdeal.Bodies

open Cert.KernelIdeal Cert.KernelIdeal.Gen
open Idealize.ShloMosaic Idealize.ShloMosaic.ValueIdx

/-- The sum over the middle axis of a `[512, 5, 512]` block, read at `(c, d)`: the five entries `(c, s, d)`. -/
theorem middle_sum (v : FVec Ideal S512x5x512 .f32) (h : S512x5x512.Reduces [1] S512x512)
    (hφ : FKind.Formats .f32) (hacc : (0x00000000#32 : BitVec 32) = 0x00000000#32) (c d : Fin 512) :
    multiReduction .add [1] S512x512 v 0x00000000#32 h hφ hacc (ix2 c d) = ∑ s : Fin 5, v (ix3 c s d) := by
  refine (Ideal.multiReduction_add_single v 0x00000000#32 h hφ hacc (ix2 c d)).trans ?_
  refine Finset.sum_congr rfl fun k _ => congrArg v (funext fun a => Fin.ext ?_)
  match a with
  | ⟨0, _⟩ => rfl
  | ⟨1, _⟩ => rfl
  | ⟨2, _⟩ => rfl

/-- What the first kernel stores, at `(c, d)`: the mean of the block's five rows `(c, ·, d)`. -/
theorem proto_block (v0 : Vec Ideal S512x5x512 .f32) (c d : Fin 512) :
    k0_pay1 (F := Ideal) v0 (ix2 c d) = Ideal.div (∑ s : Fin 5, v0 (ix3 c s d)) Spec.five := by
  unfold k0_pay1
  show Ideal.div (multiReduction (F := Ideal) .add [1] S512x512 v0 0x00000000#32 reduces_S512x5x512_S512x512 (.inl rfl) rfl (ix2 c d))
      (Ideal.ofBits .f32 0x40A00000#32) = _
  exact congrArg (Ideal.div · Spec.five) (middle_sum v0 _ _ _ c d)

end Cert.KernelIdeal.Bodies

end
-- ==== Proof.ProtoArray.lean ====
/-
  The prototype table after the first launch.

  The first launch runs over four points; point `t` reads classes `512 t … 512 t + 511` of the support sets (all five
  rows, all features) and writes back rows `512 t … 512 t + 511` of the table. What it writes at `(p, d)` is the mean of
  the block's rows `(p, ·, d)`, which are the support rows of class `512 t + p`: the block of the prototype array. The four
  blocks tile the table, so after the launch the table is the prototype array of the support sets as launched.
-/
import proofs.«182172_j64939905516354_2_alg».proof.Proof.Gen.KernelIdeal.Frame
import proofs.«182172_j64939905516354_2_alg».proof.Proof.ProtoBody
import proofs.«182172_j64939905516354_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The first launch's index maps over its four points: the block of classes moves with the point, every other block
    index is zero. -/
theorem proto_idx : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The support sets' block at point `t`, at `x`, is the launch array at class `512 t + x₀`. -/
theorem support_block (c : Dev nD) (t : Fin cfg0.N) (x : S512x5x512.Idx) (k : S2048x5x512.Idx)
    (hk0 : (k 0).val = 512 * t.val + (x 0).val) (hk1 : (k 1).val = (x 1).val) (hk2 : (k 2).val = (x 2).val) :
    (iblk0 (V0 m ρ) c 0 t : Vec Ideal S512x5x512 .f32) x
      = (m ((c : Thread nD τ).loc main_arg1) : S2048x5x512.Idx → Elt Ideal .f32) k := by
  obtain ⟨e0, e1, e2, -, -⟩ := proto_idx t
  unfold iblk0
  rw [View.read_apply]
  show (m ((c : Thread nD τ).loc main_arg1) : S2048x5x512.Idx → Elt Ideal .f32) _ = _
  congr 1
  funext a
  apply Fin.ext
  match a with
  | ⟨0, _⟩ => show win0_0.index t (0 : Fin 3) * 512 + 1 * (x 0).val = (k 0).val; omega
  | ⟨1, _⟩ => show win0_0.index t (1 : Fin 3) * 5 + 1 * (x 1).val = (k 1).val; omega
  | ⟨2, _⟩ => show win0_0.index t (2 : Fin 3) * 512 + 1 * (x 2).val = (k 2).val; omega

/-- What point `t` writes back is block `t` of the prototype array of the support sets as launched. -/
theorem proto_flushed (c : Dev nD) (t : Fin cfg0.N) :
    (dat0 (V0 m ρ) c).flushed 1 t
      = ((cfg0.win 1).blk t).view.read (Elt Ideal) (Spec.protoArr (m ((c : Thread nD τ).loc main_arg1))) := by
  show (cfg0.win 1).cut (grid0.coords t) ((dat0 (V0 m ρ) c).after 1 t) = _
  rw [after0_1]
  unfold out0_1
  rw [View.canon_unit_zero zero2]
  simp only [View.ld_unit_zero (S := S512x5x512) zero3]
  obtain ⟨-, -, -, e3, e4⟩ := proto_idx t
  funext j
  have hj0 : (j 0).val < 512 := (j 0).isLt
  have hj1 : (j 1).val < 512 := (j 1).isLt
  have hj : j = ix2 (⟨(j 0).val, hj0⟩ : Fin 512) (⟨(j 1).val, hj1⟩ : Fin 512) := funext fun a => Fin.ext (by
    match a with
    | ⟨0, _⟩ => rfl
    | ⟨1, _⟩ => rfl)
  show k0_pay1 (F := Ideal) (iblk0 (V0 m ρ) c 0 t) j
    = Spec.protoArr (m ((c : Thread nD τ).loc main_arg1)) (((cfg0.win 1).blk t).view.emb j)
  refine (congrArg (k0_pay1 (F := Ideal) (iblk0 (V0 m ρ) c 0 t)) hj).trans ?_
  refine (Bodies.proto_block (iblk0 (V0 m ρ) c 0 t) _ _).trans ?_
  unfold Spec.protoArr Spec.proto
  refine congrArg (Ideal.div · Spec.five) (Finset.sum_congr rfl fun s _ => ?_)
  refine support_block m ρ c t _ _ ?_ rfl ?_
  · show win0_1.index t (0 : Fin 2) * 512 + 1 * (j 0).val = 512 * t.val + (j 0).val; omega
  · show win0_1.index t (1 : Fin 2) * 512 + 1 * (j 1).val = (j 1).val; omega

/-- An index of the table is in point `t`'s block iff each coordinate is in the block's range on its axis. -/
theorem proto_mem_blk (t : Fin cfg0.N) (i : S2048x512.Idx) :
    i ∈ ((cfg0.win 1).blk t).view.set
      ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- Every row of the table is in the block of the point its class falls in. -/
theorem proto_cover (i : S2048x512.Idx) :
    ∃ t : Fin cfg0.N, (cfg0.win 1).flush t = true ∧ i ∈ ((cfg0.win 1).blk t).view.set := by
  have hi0 : (i 0).val < 2048 := (i 0).isLt
  have hi1 : (i 1).val < 512 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, e3, e4⟩ := proto_idx t
  refine ⟨t, flush0_1 t, ?_⟩
  rw [proto_mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 512 ≤ (i 1).val ∧ (i 1).val < win0_1.index t (1 : Fin 2) * 512 + 512
    omega

/-- The table after the first launch is the prototype array of the support sets as launched. -/
theorem proto_final (c : Dev nD) :
    (dat0 (V0 m ρ) c).arrAt 1 cfg0.N = Spec.protoArr (m ((c : Thread nD τ).loc main_arg1)) :=
  (dat0 (V0 m ρ) c).arrAt_eq_of_cover 1 _ (fun t _ => proto_flushed m ρ c t) proto_cover

end Cert.KernelIdeal.Whole

end
-- ==== Proof.SoftArray.lean ====
/-
  The result after the second launch.

  The second launch runs over sixteen points; point `t` reads queries `1024 t … 1024 t + 1023` and the whole prototype
  table, and writes back rows `1024 t … 1024 t + 1023` of the result. The queries are as launched (the first launch does
  not touch them); the table is what the first launch left, the prototype array of the support sets as launched. What the
  point writes at `(p, c)` is the softmax of the scores of block row `p` against the table, at `c`: row `1024 t + p` of the
  specification. The sixteen blocks tile the result.
-/
import proofs.«182172_j64939905516354_2_alg».proof.Proof.Gen.KernelIdeal.Frame
import proofs.«182172_j64939905516354_2_alg».proof.Proof.SoftBody
import proofs.«182172_j64939905516354_2_alg».proof.Proof.ProtoArray
import proofs.«182172_j64939905516354_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification at an index whose coordinates are `q` and `c`. -/
theorem soft_at (x : (⟨2, ![16384, 512]⟩ : Shape).Idx → EReal) (y : (⟨3, ![2048, 5, 512]⟩ : Shape).Idx → EReal)
    (i : (⟨2, ![16384, 2048]⟩ : Shape).Idx) (q : Fin 16384) (c : Fin 2048) (hq : (i 0).val = q.val) (hc : (i 1).val = c.val) :
    Spec.soft x y i = Spec.softRow (Spec.scores (fun k => x (ix2 q k)) (Spec.proto y)) c := by
  unfold Spec.soft
  have e0 : (⟨(i 0).val, (i 0).isLt⟩ : Fin 16384) = q := Fin.ext hq
  have e1 : (⟨(i 1).val, (i 1).isLt⟩ : Fin 2048) = c := Fin.ext hc
  rw [e0, e1]

/-- The second launch's index maps over its sixteen points: the block of queries and the block of result rows move
    with the point, the table's block index and every column block index are zero. -/
theorem soft_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The queries as the second launch finds them: as launched. -/
theorem queries_entry (c : Dev nD) :
    (V1 m ρ c main_arg0 : S16384x512.Idx → Elt Ideal .f32) = m ((c : Thread nD τ).loc main_arg0) :=
  W1_of_ne m ρ c main_arg0 (by decide)

/-- The table as the second launch finds it: the prototype array of the support sets as launched. -/
theorem table_entry (c : Dev nD) :
    (V1 m ρ c main_v0 : S2048x512.Idx → Elt Ideal .bf16) = Spec.protoArr (m ((c : Thread nD τ).loc main_arg1)) :=
  (W1_arr m ρ c 1).trans (proto_final m ρ c)

/-- The queries' block at point `t`, at `x`, is the launch array at row `1024 t + x₀`. -/
theorem query_block (c : Dev nD) (t : Fin cfg1.N) (x : S1024x512.Idx) (k : S16384x512.Idx)
    (hk0 : (k 0).val = 1024 * t.val + (x 0).val) (hk1 : (k 1).val = (x 1).val) :
    (iblk1 (V1 m ρ) c 0 t : Vec Ideal S1024x512 .f32) x
      = (m ((c : Thread nD τ).loc main_arg0) : S16384x512.Idx → Elt Ideal .f32) k := by
  obtain ⟨e0, e1, -, -, -, -⟩ := soft_idx t
  unfold iblk1
  rw [View.read_apply]
  show (V1 m ρ c main_arg0 : S16384x512.Idx → Elt Ideal .f32) _ = _
  rw [queries_entry]
  congr 1
  funext a
  apply Fin.ext
  match a with
  | ⟨0, _⟩ => show win1_0.index t (0 : Fin 2) * 1024 + 1 * (x 0).val = (k 0).val; omega
  | ⟨1, _⟩ => show win1_0.index t (1 : Fin 2) * 512 + 1 * (x 1).val = (k 1).val; omega

/-- The table's block at any point is the whole table: the prototype array. -/
theorem table_block (c : Dev nD) (t : Fin cfg1.N) (x : S2048x512.Idx) :
    (iblk1 (V1 m ρ) c 1 t : Vec Ideal S2048x512 .bf16) x = Spec.protoArr (m ((c : Thread nD τ).loc main_arg1)) x := by
  obtain ⟨-, -, e2, e3, -, -⟩ := soft_idx t
  unfold iblk1
  rw [View.read_apply]
  show (V1 m ρ c main_v0 : S2048x512.Idx → Elt Ideal .bf16) _ = _
  rw [table_entry]
  congr 1
  funext a
  apply Fin.ext
  match a with
  | ⟨0, _⟩ => show win1_1.index t (0 : Fin 2) * 2048 + 1 * (x 0).val = (x 0).val; omega
  | ⟨1, _⟩ => show win1_1.index t (1 : Fin 2) * 512 + 1 * (x 1).val = (x 1).val; omega

/-- What point `t` writes back is block `t` of the specification of the arguments as launched. -/
theorem soft_flushed (c : Dev nD) (t : Fin cfg1.N) :
    (dat1 (V1 m ρ) c).flushed 2 t
      = ((cfg1.win 2).blk t).view.read (Elt Ideal)
          (Spec.soft (m ((c : Thread nD τ).loc main_arg0)) (m ((c : Thread nD τ).loc main_arg1))) := by
  show (cfg1.win 2).cut (grid1.coords t) ((dat1 (V1 m ρ) c).after 2 t) = _
  rw [after1_2]
  unfold out1_2
  rw [View.canon_unit_zero zero2]
  simp only [View.ld_unit_zero (S := S1024x512) zero2, View.ld_unit_zero (S := S2048x512) zero2]
  obtain ⟨-, -, -, -, e4, e5⟩ := soft_idx t
  have ht : t.val < 16 := Nat.lt_of_lt_of_eq (show t.val < grid1.N from t.isLt) N_1
  funext j
  have hj0 : (j 0).val < 1024 := (j 0).isLt
  have hj1 : (j 1).val < 2048 := (j 1).isLt
  have hj : j = ix2 (⟨(j 0).val, hj0⟩ : Fin 1024) (⟨(j 1).val, hj1⟩ : Fin 2048) := funext fun a => Fin.ext (by
    match a with
    | ⟨0, _⟩ => rfl
    | ⟨1, _⟩ => rfl)
  show k1_pay1 (F := Ideal) (iblk1 (V1 m ρ) c 0 t) (iblk1 (V1 m ρ) c 1 t) j
    = Spec.soft (m ((c : Thread nD τ).loc main_arg0)) (m ((c : Thread nD τ).loc main_arg1)) (((cfg1.win 2).blk t).view.emb j)
  refine (congrArg (k1_pay1 (F := Ideal) (iblk1 (V1 m ρ) c 0 t) (iblk1 (V1 m ρ) c 1 t)) hj).trans ?_
  refine (Bodies.soft_block (iblk1 (V1 m ρ) c 0 t) (iblk1 (V1 m ρ) c 1 t) _ _).trans ?_
  refine Eq.trans ?_ (soft_at _ _ (((cfg1.win 2).blk t).view.emb j)
    (⟨1024 * t.val + (j 0).val, by omega⟩ : Fin 16384) (⟨(j 1).val, hj1⟩ : Fin 2048) ?_ ?_).symm
  · refine congrArg (Spec.softRow · _) (funext fun c' => ?_)
    unfold Spec.scores
    refine Finset.sum_congr rfl fun k _ => ?_
    exact congrArg₂ (· * ·)
      (query_block m ρ c t (ix2 (⟨(j 0).val, hj0⟩ : Fin 1024) k) (ix2 (⟨1024 * t.val + (j 0).val, by omega⟩ : Fin 16384) k) rfl rfl)
      (table_block m ρ c t (ix2 c' k))
  · show win1_2.index t (0 : Fin 2) * 1024 + 1 * (j 0).val = 1024 * t.val + (j 0).val; omega
  · show win1_2.index t (1 : Fin 2) * 2048 + 1 * (j 1).val = (j 1).val; omega

/-- An index of the result is in point `t`'s block iff each coordinate is in the block's range on its axis. -/
theorem soft_mem_blk (t : Fin cfg1.N) (i : S16384x2048.Idx) :
    i ∈ ((cfg1.win 2).blk t).view.set
      ↔ ∀ a : Fin 2, win1_2.index t a * S1024x2048.size a ≤ (i a).val ∧ (i a).val < win1_2.index t a * S1024x2048.size a + S1024x2048.size a := by
  show i ∈ ((View.whole main_v1).slice (win1_2.rect t)).set ↔ _
  rw [View.set_slice_whole, Rect.mem_set_unit]
  exact Iff.rfl

/-- Every row of the result is in the block of the point its query falls in. -/
theorem soft_cover (i : S16384x2048.Idx) :
    ∃ t : Fin cfg1.N, (cfg1.win 2).flush t = true ∧ i ∈ ((cfg1.win 2).blk t).view.set := by
  have hi0 : (i 0).val < 16384 := (i 0).isLt
  have hi1 : (i 1).val < 2048 := (i 1).isLt
  obtain ⟨t, ht⟩ : ∃ t : Fin cfg1.N, t.val = (i 0).val / 1024 :=
    ⟨⟨(i 0).val / 1024, by show (i 0).val / 1024 < grid1.N; rw [N_1]; omega⟩, rfl⟩
  obtain ⟨-, -, -, -, e4, e5⟩ := soft_idx t
  refine ⟨t, flush1_2 t, ?_⟩
  rw [soft_mem_blk]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- The result after the second launch is the specification of the arguments as launched. -/
theorem soft_final (c : Dev nD) :
    (dat1 (V1 m ρ) c).arrAt 2 cfg1.N
      = Spec.soft (m ((c : Thread nD τ).loc main_arg0)) (m ((c : Thread nD τ).loc main_arg1)) :=
  (dat1 (V1 m ρ) c).arrAt_eq_of_cover 2 _ (fun t _ => soft_flushed m ρ c t) soft_cover

/-- The result buffer after both launches. -/
theorem result_eq (c : Dev nD) :
    W2 m ρ c (Proc.devRef .tc main_v1)
      = Spec.soft (m ((c : Thread nD τ).loc main_arg0)) (m ((c : Thread nD τ).loc main_arg1)) :=
  (W2_arr m ρ c 2).trans (soft_final m ρ c)

end Cert.KernelIdeal.Whole

end
-- ==== Proof.RefSide.lean ====
/-
  The reference computes the specification.

  Its twenty host operations, read one at a time at an index: the mean over the five support rows (a sum from zero,
  divided by five) is the prototype; the contraction over the feature axis is the score; the row maximum is a fold of
  `max` from `-∞`, and the further `max` with `-∞` the reference applies to it changes nothing; the exponentials of the
  differences, their row sum from zero, and the quotient are the stable softmax of the row.
-/
import proofs.«182172_j64939905516354_2_alg».proof.Proof.Gen.ReferenceIdeal.Read
import proofs.«182172_j64939905516354_2_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The float pattern of minus infinity denotes the bottom of the extended reals. -/
theorem negInf_eq : Spec.negInf = ⊥ := by
  unfold Spec.negInf; simp [Ideal.ofBits, Ideal.ieee]

/-- The mean over the five support rows, at `(c, d)`, is the prototype. -/
theorem mean_at (y : FVec Ideal S2048x5x512 .f32) (c : Fin 2048) (d : Fin 512) :
    val_main_v2 (F := Ideal) y (ix2 c d) = Spec.proto y c d := by
  rw [val_main_v2_apply, val_main_v0_apply, val_main_v1_apply, val_main_cst_apply, val_main_cst_0_apply]
  simp only [Ideal.hostDivf_def, Ideal.ofBits_def, Ideal.ofBits_zero_f32, zero_add]
  unfold Spec.proto
  refine congrArg (Ideal.div · Spec.five) (Finset.sum_congr rfl fun s _ => congrArg y (funext fun a => Fin.ext ?_))
  match a with
  | ⟨0, _⟩ => rfl
  | ⟨1, _⟩ => rfl
  | ⟨2, _⟩ => rfl

/-- The contraction, at `(q, c)`, is the score of query `q` against the prototype of class `c`. -/
theorem score_at (x : FVec Ideal S16384x512 .f32) (y : FVec Ideal S2048x5x512 .f32) (q : Fin 16384) (c : Fin 2048) :
    val_main_v3 (F := Ideal) x y (ix2 q c) = Spec.scores (fun k => x (ix2 q k)) (Spec.proto y) c := by
  rw [val_main_v3_apply]
  unfold Spec.scores
  refine Finset.sum_congr rfl fun k _ => ?_
  have el : lidx_main_v3 (ix2 q c) k = ix2 q k := funext fun a => Fin.ext (by
    match a with
    | ⟨0, _⟩ => rfl
    | ⟨1, _⟩ => rfl)
  have er : ridx_main_v3 (ix2 q c) k = ix2 c k := funext fun a => Fin.ext (by
    match a with
    | ⟨0, _⟩ => rfl
    | ⟨1, _⟩ => rfl)
  rw [el, er, mean_at]

/-- The reduced index `q` with lane `k` put back is `(q, k)`. -/
theorem lift_row (h : S16384x2048.Reduces [1] S16384) (q : Fin 16384) (k : Fin (S16384x2048.size 1)) :
    h.lift (ix1 q) k = ix2 q (⟨k.val, k.isLt⟩ : Fin 2048) := by
  funext a; apply Fin.ext
  match a with
  | ⟨0, _⟩ => rfl
  | ⟨1, _⟩ => rfl

/-- The reference's row maximum (the reduction from `-∞`, then one more `max` with `-∞`), at `q`, is the maximum of
    the row of scores. -/
theorem rowmax_at (x : FVec Ideal S16384x512 .f32) (y : FVec Ideal S2048x5x512 .f32) (q : Fin 16384) :
    val_main_v6 (F := Ideal) x y (ix1 q) = Spec.rowMax (Spec.scores (fun k => x (ix2 q k)) (Spec.proto y)) := by
  rw [val_main_v6_apply, val_main_v5_apply, val_main_cst_2_apply]
  have h4 : val_main_v4 (F := Ideal) x y (ix1 q) = Spec.rowMax (Spec.scores (fun k => x (ix2 q k)) (Spec.proto y)) := by
    unfold val_main_v4
    rw [Host.reduce_eq_fold_single FloatOps.maximumf _ _ reducesTo_S16384x2048_S16384_d1
      (by decide : S16384x2048.Reduces [1] S16384) h_S_]
    unfold Spec.rowMax
    have hf : (val_main_v3 (F := Ideal) x y ∘ (by decide : S16384x2048.Reduces [1] S16384).lift (ix1 q))
        = Spec.scores (fun k => x (ix2 q k)) (Spec.proto y) := funext fun k => by
      show val_main_v3 (F := Ideal) x y ((by decide : S16384x2048.Reduces [1] S16384).lift (ix1 q) k) = _
      rw [lift_row, score_at]
      rfl
    rw [hf]
    rfl
  rw [h4]
  show max (Ideal.ofBits .f32 0xFF800000#32) _ = _
  rw [show Ideal.ofBits .f32 0xFF800000#32 = (⊥ : EReal) from negInf_eq]
  exact max_bot_left _

/-- The exponential of a score less its row's maximum. -/
theorem exp_at (x : FVec Ideal S16384x512 .f32) (y : FVec Ideal S2048x5x512 .f32) (q : Fin 16384) (c : Fin 2048) :
    val_main_v10 (F := Ideal) x y (ix2 q c)
      = Ideal.exp (Spec.scores (fun k => x (ix2 q k)) (Spec.proto y) c
          - Spec.rowMax (Spec.scores (fun k => x (ix2 q k)) (Spec.proto y))) := by
  rw [val_main_v10_apply, val_main_v9_apply, val_main_v8_apply, val_main_v7_apply, score_at]
  have e : idx_main_v7 (idx_main_v8 (ix2 q c)) = ix1 q := funext fun a => Fin.ext (by
    match a with
    | ⟨0, _⟩ => rfl)
  rw [e, rowmax_at]
  rfl

/-- The row sum of the exponentials, spread back over the row. -/
theorem denom_at (x : FVec Ideal S16384x512 .f32) (y : FVec Ideal S2048x5x512 .f32) (q : Fin 16384) (c : Fin 2048) :
    val_main_v13 (F := Ideal) x y (ix2 q c)
      = ∑ c' : Fin 2048, Ideal.exp (Spec.scores (fun k => x (ix2 q k)) (Spec.proto y) c'
          - Spec.rowMax (Spec.scores (fun k => x (ix2 q k)) (Spec.proto y))) := by
  rw [val_main_v13_apply, val_main_v12_apply, val_main_v11_apply, val_main_cst_3_apply]
  simp only [Ideal.ofBits_def, Ideal.ofBits_zero_f32, zero_add]
  refine Finset.sum_congr rfl fun k _ => ?_
  have e : idx_main_v11 (idx_main_v12 (idx_main_v13 (ix2 q c))) k = ix2 q k := funext fun a => Fin.ext (by
    match a with
    | ⟨0, _⟩ => rfl
    | ⟨1, _⟩ => rfl)
  rw [e, exp_at]

/-- The reference's result is the specification. -/
theorem ref_eq (x : FVec Ideal S16384x512 .f32) (y : FVec Ideal S2048x5x512 .f32) :
    val_main_v14 (F := Ideal) x y = Spec.soft x y := by
  funext i
  obtain ⟨q, c, rfl⟩ : ∃ (q : Fin 16384) (c : Fin 2048), i = ix2 q c := ⟨i 0, i 1, eq_ix2 i⟩
  rw [val_main_v14_apply, exp_at, denom_at]
  rfl

end Cert.ReferenceIdeal.RefValue

end
-- ==== Proof.lean ====
/-
  The certificate: the kernel (two launches: prototype pooling, then scores and a row softmax) against its reference.

  Both idealized programs compute `Spec.soft` of the arguments on the extended reals: row `q` of the result is the stable
  softmax of the scores `∑ k, x[q, k] · proto[c, k]`, where `proto[c, ·]` is the mean of the five support rows of class `c`.
  * The kernel: the first launch leaves the prototype array in its table (`ProtoArray`), the second reads it and leaves
    the specification in the result (`SoftArray`); the run keeps the result buffer (`KernelRun`).
  * The reference: its operations read one at a time give the same function (`RefSide`); the one operation it has beyond
    the kernel's, a maximum of the row maximum with `-∞`, is the identity.
  No step uses that the inputs are finite: the two sides are the same expression in the same operations.
  The idealization rewrote nothing, so the kernel's preservation claim has no conjunct.
-/
import proofs.«182172_j64939905516354_2_alg».proof.Defs
import proofs.«182172_j64939905516354_2_alg».proof.Proof.Gen.Kernel
import proofs.«182172_j64939905516354_2_alg».proof.Proof.Gen.Kernel.Skeleton
import proofs.«182172_j64939905516354_2_alg».proof.Proof.Gen.Kernel.Launch
import proofs.«182172_j64939905516354_2_alg».proof.Proof.Gen.Kernel.Points
import proofs.«182172_j64939905516354_2_alg».proof.Proof.Gen.Kernel.Frame
import proofs.«182172_j64939905516354_2_alg».proof.Proof.Gen.KernelIdeal
import proofs.«182172_j64939905516354_2_alg».proof.Proof.Gen.KernelIdeal.Skeleton
import proofs.«182172_j64939905516354_2_alg».proof.Proof.Gen.KernelIdeal.Launch
import proofs.«182172_j64939905516354_2_alg».proof.Proof.Gen.KernelIdeal.Points
import proofs.«182172_j64939905516354_2_alg».proof.Proof.Gen.KernelIdeal.Frame
import proofs.«182172_j64939905516354_2_alg».proof.Proof.Gen.ReferenceIdeal
import proofs.«182172_j64939905516354_2_alg».proof.Proof.Gen.ReferenceIdeal.Run
import proofs.«182172_j64939905516354_2_alg».proof.Proof.Gen.ReferenceIdeal.Read
import proofs.«182172_j64939905516354_2_alg».proof.Proof.Gen.Pre_finite_inputs
import proofs.«182172_j64939905516354_2_alg».proof.Proof.Spec
import proofs.«182172_j64939905516354_2_alg».proof.Proof.KernelRun
import proofs.«182172_j64939905516354_2_alg».proof.Proof.SoftArray
import proofs.«182172_j64939905516354_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run with its result at the specification of the arguments as launched. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
          = Spec.soft (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono
    (fun _ h c => ⟨(h c).1.trans (Cert.KernelIdeal.Whole.result_eq m ρ c), (h c).2⟩)
    (Cert.KernelIdeal.Whole.run_result (F := Ideal) m ρ)

/-- From memories agreeing on the arguments both idealized programs end with the specification of those arguments in
    their result. -/
theorem algebraic : Cert.algebraic_KernelIdeal_ReferenceIdeal := by
  intro m ρ m' ρ' _ hagree
  refine ⟨fun c => Spec.soft (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
